-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S512x1024 : Shape := ⟨2, ![512, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part6 {F : FTy → Type} [FloatOps F] (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  main_v103

def fn_part5 {F : FTy → Type} [FloatOps F] (main_arg18 : FVec F S512 .f32) (main_arg19 : FVec F S512x1024 .f32) (main_arg20 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x1024 .f32 := Host.absf main_arg19
  let main_cst_36 : FVec F S_ .f32 := constant S_ .f32 0x7F800000#32
  let main_v95 : FVec F S512x1024 .f32 := broadcastInDim S512x1024 ![] bcast_S_S512x1024 main_cst_36
  let main_v96 : IVec S512x1024 1 := cmpf .olt main_v94 main_v95
  let main_c_37 : IVec S_ 1 := constantI S_ 1 1#1
  let main_v97 : IVec S_ 1 := (fun x v => Host.reduce IntOp.andi x v reducesTo_S512x1024_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_v98 main_v101 main_c_39

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S512x1024 .f32) (main_arg20 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x512 : Shape := ⟨2, ![16384, 512]⟩
abbrev S512x512 : Shape := ⟨2, ![512, 512]⟩
abbrev S512 : Shape := ⟨1, ![512]⟩
abbrev S512x1024 : Shape := ⟨2, ![512, 1024]⟩
abbrev S2048x512 : Shape := ⟨2, ![2048, 512]⟩
abbrev S2048 : Shape := ⟨1, ![2048]⟩
abbrev S2560x512 : Shape := ⟨2, ![2560, 512]⟩
abbrev S2560 : Shape := ⟨1, ![2560]⟩
abbrev S512x2560 : Shape := ⟨2, ![512, 2560]⟩
abbrev S1x2560 : Shape := ⟨2, ![1, 2560]⟩
abbrev S1024x512 : Shape := ⟨2, ![1024, 512]⟩
abbrev S1024x2560 : Shape := ⟨2, ![1024, 2560]⟩

abbrev nBuf : Space → Nat
  | .hbm => 38
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x1024, .f32⟩
  | .hbm, ⟨20, _⟩ => ⟨S512, .f32⟩
  | .hbm, ⟨21, _⟩ => ⟨S2048x512, .f32⟩
  | .hbm, ⟨22, _⟩ => ⟨S2048, .f32⟩
  | .hbm, ⟨23, _⟩ => ⟨S2048x512, .f32⟩
  | .hbm, ⟨24, _⟩ => ⟨S2048, .f32⟩
  | .hbm, ⟨25, _⟩ => ⟨S512x512, .f32⟩
  | .hbm, ⟨26, _⟩ => ⟨S512x512, .f32⟩
  | .hbm, ⟨27, _⟩ => ⟨S2560x512, .f32⟩
  | .hbm, ⟨28, _⟩ => ⟨S2560x512, .f32⟩
  | .hbm, ⟨29, _⟩ => ⟨S2048, .f32⟩
  | .hbm, ⟨30, _⟩ => ⟨S2560, .f32⟩
  | .hbm, ⟨31, _⟩ => ⟨S512x2560, .f32⟩
  | .hbm, ⟨32, _⟩ => ⟨S512x2560, .bf16⟩
  | .hbm, ⟨33, _⟩ => ⟨S512x2560, .f32⟩
  | .hbm, ⟨34, _⟩ => ⟨S512x2560, .bf16⟩
  | .hbm, ⟨35, _⟩ => ⟨S1x2560, .f32⟩
  | .hbm, ⟨36, _⟩ => ⟨S16384x512, .f32⟩
  | .hbm, ⟨37, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x2560, .bf16⟩
  | .local _ .vmem, ⟨7, _⟩ => ⟨S512x2560, .bf16⟩
  | .local _ .vmem, ⟨8, _⟩ => ⟨S1x2560, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  slices_S512x1024_S512x512_0_0 : S512x1024.Slices ![0, 0] S512x512
  slices_S512x1024_S512x512_0_512 : S512x1024.Slices ![0, 512] S512x512
  concatenates_S2048x512_S512x512_S2560x512_d0 : Shape.Concatenates [S2048x512, S512x512] S2560x512 0
  concatenates_S2048_S512_S2560_d0 : Shape.Concatenates [S2048, S512] S2560 0
  transposes_S2560x512_S512x2560_1_0 : S2560x512.Transposes [1, 0] S512x2560
  bitsLt_bf16_f32 : FTy.bits .bf16 < FTy.bits .f32
  shapeCasts_S2560_S1x2560 : S2560.ShapeCasts S1x2560
  inb_S1024x512_S1024x512_0_0 : ∀ a, (![0, 0] : Fin 2 → Nat) a + S1024x512.size a ≤ S1024x512.size a
  h_S1024x512 : 0 < S1024x512.numel
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  slices_S1024x2560_o0_0_S1024x512 : S1024x2560.Slices ![0, 0] S1024x512
  slices_S1024x2560_o0_512_S1024x512 : S1024x2560.Slices ![0, 512] S1024x512
  slices_S1024x2560_o0_1024_S1024x512 : S1024x2560.Slices ![0, 1024] S1024x512
  slices_S1024x2560_o0_1536_S1024x512 : S1024x2560.Slices ![0, 1536] S1024x512
  slices_S1024x2560_o0_2048_S1024x512 : S1024x2560.Slices ![0, 2048] S1024x512
  dot_S1024x512_S512x2560_S1024x2560_1_0_0_1_n_n_wf : DotDims.WF S1024x512 S512x2560 S1024x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2560.size a ≤ S512x2560.size a
  hwx0_3 : ∀ i : grid0.Coords, EltTy.bits .bf16 = 32 ∨ (Rect.block (s := S512x2560) S512x2560.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2560.size a ≤ S512x2560.size a
  hwx0_4 : ∀ i : grid0.Coords, EltTy.bits .bf16 = 32 ∨ (Rect.block (s := S512x2560) S512x2560.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2560.size a ≤ S1x2560.size a
  hwx0_5 : ∀ i : grid0.Coords, EltTy.bits .f32 = 32 ∨ (Rect.block (s := S1x2560) S1x2560.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)

variable [Facts₀]

def dot_S1024x512_S512x2560_S1024x2560_1_0_0_1_n_n : DotDims S1024x512 S512x2560 S1024x2560 where
  lhsContracting := [1]
  rhsContracting := [0]
  lhsNonContracting := [0]
  rhsNonContracting := [1]
  lhsBatch := []
  rhsBatch := []
  wf := dot_S1024x512_S512x2560_S1024x2560_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x2560.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x2560.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x1024 : Shape := ⟨2, ![512, 1024]⟩
abbrev S2048x512 : Shape := ⟨2, ![2048, 512]⟩
abbrev S2048 : Shape := ⟨1, ![2048]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩
abbrev S1x512 : Shape := ⟨2, ![1, 512]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x1024, .f32⟩
  | .hbm, ⟨20, _⟩ => ⟨S512, .f32⟩
  | .hbm, ⟨21, _⟩ => ⟨S2048x512, .f32⟩
  | .hbm, ⟨22, _⟩ => ⟨S2048, .f32⟩
  | .hbm, ⟨23, _⟩ => ⟨S2048x512, .f32⟩
  | .hbm, ⟨24, _⟩ => ⟨S2048, .f32⟩
  | .hbm, ⟨25, _⟩ => ⟨S512x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S512x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S16384x512, .f32⟩
  | .hbm, ⟨72, _⟩ => ⟨S512x512, .f32⟩
  | .hbm, ⟨73, _⟩ => ⟨S16384x512, .f32⟩
  | .hbm, ⟨74, _⟩ => ⟨S16384x512, .f32⟩
  | .hbm, ⟨75, _⟩ => ⟨S1x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S512x2048_S16384x2048_1_0_0_1_n_n_wf : DotDims.WF S16384x512 S512x2048 S16384x2048 [1] [0] [0] [1] [] []
  dot_S16384x512_S512x512_S16384x512_1_0_0_1_n_n_wf : DotDims.WF S16384x512 S512x512 S16384x512 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.FrameKernel.lean ====
/-
  The frame of `Kernel`'s @main: the host operations that stack the eight weight matrices and biases
  into the two [512, 2560] bf16 matrices and the [1, 2560] bias row, then the one pipelined region over
  16 batch tiles of 1024 rows. Written at any float instance `F`.

  What the body leaves in its two output tiles is the canon of its one whole-tile store each, over the
  payloads of the six input tiles; the three batch-tiled inputs are fetched at every point, the three
  resident operands once; every argument array is either a window that is never written back or an
  array no window stages, so each ends as launched.
-/
import proofs.«120805_j76390288327651_2_alg».proof.Proof.Gen.Kernel.Launch
import proofs.«120805_j76390288327651_2_alg».proof.Proof.Gen.Kernel.Skeleton
import proofs.«120805_j76390288327651_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: the launch memory after the fifteen host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub
    hostOps0_fresh main_chain

/-- The host operations write only their own results: argument 0 reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 1 reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 2 reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 3 reaches the region as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 4 reaches the region as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 5 reaches the region as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 6 reaches the region as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 7 reaches the region as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 8 reaches the region as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 9 reaches the region as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 10 reaches the region as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 11 reaches the region as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 12 reaches the region as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 13 reaches the region as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 14 reaches the region as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 15 reaches the region as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 16 reaches the region as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 17 reaches the region as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 18 reaches the region as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 19 reaches the region as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 20 reaches the region as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or an
    earlier one did and the block index has not moved since. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or an
    earlier one did and the block index has not moved since. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or an
    earlier one did and the block index has not moved since. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or an
    earlier one did and the block index has not moved since. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or an
    earlier one did and the block index has not moved since. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or an
    earlier one did and the block index has not moved since. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tiles -/

abbrev rA : Rect S1024x512 := Rect.unit (s := S1024x512) ![0, 0] S1024x512.size inb_S1024x512_S1024x512_0_0
abbrev rW : Rect S512x2560 := Rect.unit (s := S512x2560) ![0, 0] S512x2560.size inb_S512x2560_S512x2560_0_0
abbrev rB : Rect S1x2560 := Rect.unit (s := S1x2560) ![0, 0] S1x2560.size inb_S1x2560_S1x2560_0_0

/-- The hidden-state tile after the body: its one store, the payload `o · tanh c · exp (tanh e)` of the six loaded tiles. -/
def outH (x0 x1 x2 : Vec F S1024x512 .f32) (x3 x4 : Vec F S512x2560 .bf16) (x5 : Vec F S1x2560 .f32) : Vec F S1024x512 .f32 :=
  View.canon [⟨rA, k0_pay3 (View.ld x0 rA) (View.ld x1 rA) (View.ld x2 rA) (View.ld x3 rW) (View.ld x4 rW) (View.ld x5 rB)⟩]

/-- The cell-state tile after the body: its one store, the payload `f · c_prev + i · g`. -/
def outC (x0 x1 x2 : Vec F S1024x512 .f32) (x3 x4 : Vec F S512x2560 .bf16) (x5 : Vec F S1x2560 .f32) : Vec F S1024x512 .f32 :=
  View.canon [⟨rA, k0_pay2 (View.ld x0 rA) (View.ld x1 rA) (View.ld x2 rA) (View.ld x3 rW) (View.ld x4 rW) (View.ld x5 rB)⟩]

/-- A whole-tile store covers the tile. -/
theorem coverA (p0 : Vec F S1024x512 .f32) (y : S1024x512.Idx) :
    ∃ pc ∈ ([⟨rA, p0⟩] : List (View.Piece (Elt F) S1024x512 .f32)), y ∈ pc.1.set :=
  View.cover_of_tiled [⟨rA, p0⟩] S1024x512.size (by rfl) y

/-! ## The body's triple -/

set_option maxHeartbeats 4000000 in
/-- On whole staging memrefs, the inputs at known contents and the outputs at anything, the body runs to its end
    leaving the inputs as they were and the two output tiles at `outH` and `outC` of the inputs. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2560 .bf16) (harg4 : arg4.IsWhole)
    (arg5 : Memref sig .tc .vmem S512x2560 .bf16) (harg5 : arg5.IsWhole) (arg6 : Memref sig .tc .vmem S1x2560 .f32) (harg6 : arg6.IsWhole)
    (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2560 .bf16) (x5 : Vec F S1x2560 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__xlstm_kernel i arg1 harg1 arg2 harg2 arg3 harg3 arg4 harg4 arg5 harg5 arg6 harg6 arg7 harg7 arg8 harg8) K := by
  simp only [cc0__xlstm_kernel_eq_skeleton]; unfold cc0__xlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The pipeline's proof data -/

/-- The arrays as the region finds them; after the body at point `t` each input tile still at its block and the two
    output tiles at `outH` / `outC` of the six input blocks; nothing owed, full shares, the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the input tiles hold their blocks, so the body's triple applies; the invariant and the core's
    obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each window's array ends at what the proof data
    says the sixteen points wrote back, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Argument 0 is staged by input window 0 and never written back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- Argument 1 is staged by input window 1 and never written back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
/-- Argument 2 is staged by input window 2 and never written back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
/-- Argument 3 is no window's array: the region leaves it as it found it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- Argument 4 is no window's array: the region leaves it as it found it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- Argument 5 is no window's array: the region leaves it as it found it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- Argument 6 is no window's array: the region leaves it as it found it. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- Argument 7 is no window's array: the region leaves it as it found it. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- Argument 8 is no window's array: the region leaves it as it found it. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- Argument 9 is no window's array: the region leaves it as it found it. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- Argument 10 is no window's array: the region leaves it as it found it. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
/-- Argument 11 is no window's array: the region leaves it as it found it. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
/-- Argument 12 is no window's array: the region leaves it as it found it. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
/-- Argument 13 is no window's array: the region leaves it as it found it. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
/-- Argument 14 is no window's array: the region leaves it as it found it. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
/-- Argument 15 is no window's array: the region leaves it as it found it. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
/-- Argument 16 is no window's array: the region leaves it as it found it. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
/-- Argument 17 is no window's array: the region leaves it as it found it. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
/-- Argument 18 is no window's array: the region leaves it as it found it. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)
/-- Argument 19 is no window's array: the region leaves it as it found it. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)
/-- Argument 20 is no window's array: the region leaves it as it found it. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- The two results after the run are what the sixteen points wrote back. -/
theorem postH (r : PUnit × MemSt nD τ sig (Elt F)) (h : Pipeline.FramePost cfgs (dats m) 0 (V m) r) (c : Dev nD) :
    r.2.mem ((c : Thread nD τ).loc main_v15_0) = (dats m 0 c).arrAt 6 cfg0.N := (h c).1 6
theorem postC (r : PUnit × MemSt nD τ sig (Elt F)) (h : Pipeline.FramePost cfgs (dats m) 0 (V m) r) (c : Dev nD) :
    r.2.mem ((c : Thread nD τ).loc main_v15_1) = (dats m 0 c).arrAt 7 cfg0.N := (h c).1 7

/-- The frame: @main terminates without a fault and its twenty-one argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c, kept_main_arg19 m r h c, kept_main_arg20 m r h c⟩) (run_main m ρ)

end Cert.Kernel.Frm

end
-- ==== Proof.FrameKernelIdeal.lean ====
/-
  The frame of `KernelIdeal`'s @main: the host operations that stack the eight weight matrices and biases
  into the two [512, 2560] bf16 matrices and the [1, 2560] bias row, then the one pipelined region over
  16 batch tiles of 1024 rows. Written at any float instance `F`.

  What the body leaves in its two output tiles is the canon of its one whole-tile store each, over the
  payloads of the six input tiles; the three batch-tiled inputs are fetched at every point, the three
  resident operands once; every argument array is either a window that is never written back or an
  array no window stages, so each ends as launched.
-/
import proofs.«120805_j76390288327651_2_alg».proof.Proof.Gen.KernelIdeal.Launch
import proofs.«120805_j76390288327651_2_alg».proof.Proof.Gen.KernelIdeal.Skeleton
import proofs.«120805_j76390288327651_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: the launch memory after the fifteen host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub
    hostOps0_fresh main_chain

/-- The host operations write only their own results: argument 0 reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 1 reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 2 reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 3 reaches the region as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 4 reaches the region as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 5 reaches the region as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 6 reaches the region as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 7 reaches the region as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 8 reaches the region as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 9 reaches the region as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 10 reaches the region as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 11 reaches the region as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 12 reaches the region as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 13 reaches the region as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 14 reaches the region as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 15 reaches the region as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 16 reaches the region as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 17 reaches the region as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 18 reaches the region as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 19 reaches the region as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- The host operations write only their own results: argument 20 reaches the region as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or an
    earlier one did and the block index has not moved since. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or an
    earlier one did and the block index has not moved since. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or an
    earlier one did and the block index has not moved since. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or an
    earlier one did and the block index has not moved since. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or an
    earlier one did and the block index has not moved since. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or an
    earlier one did and the block index has not moved since. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tiles -/

abbrev rA : Rect S1024x512 := Rect.unit (s := S1024x512) ![0, 0] S1024x512.size inb_S1024x512_S1024x512_0_0
abbrev rW : Rect S512x2560 := Rect.unit (s := S512x2560) ![0, 0] S512x2560.size inb_S512x2560_S512x2560_0_0
abbrev rB : Rect S1x2560 := Rect.unit (s := S1x2560) ![0, 0] S1x2560.size inb_S1x2560_S1x2560_0_0

/-- The hidden-state tile after the body: its one store, the payload `o · tanh c · exp (tanh e)` of the six loaded tiles. -/
def outH (x0 x1 x2 : Vec F S1024x512 .f32) (x3 x4 : Vec F S512x2560 .bf16) (x5 : Vec F S1x2560 .f32) : Vec F S1024x512 .f32 :=
  View.canon [⟨rA, k0_pay3 (View.ld x0 rA) (View.ld x1 rA) (View.ld x2 rA) (View.ld x3 rW) (View.ld x4 rW) (View.ld x5 rB)⟩]

/-- The cell-state tile after the body: its one store, the payload `f · c_prev + i · g`. -/
def outC (x0 x1 x2 : Vec F S1024x512 .f32) (x3 x4 : Vec F S512x2560 .bf16) (x5 : Vec F S1x2560 .f32) : Vec F S1024x512 .f32 :=
  View.canon [⟨rA, k0_pay2 (View.ld x0 rA) (View.ld x1 rA) (View.ld x2 rA) (View.ld x3 rW) (View.ld x4 rW) (View.ld x5 rB)⟩]

/-- A whole-tile store covers the tile. -/
theorem coverA (p0 : Vec F S1024x512 .f32) (y : S1024x512.Idx) :
    ∃ pc ∈ ([⟨rA, p0⟩] : List (View.Piece (Elt F) S1024x512 .f32)), y ∈ pc.1.set :=
  View.cover_of_tiled [⟨rA, p0⟩] S1024x512.size (by rfl) y

/-! ## The body's triple -/

set_option maxHeartbeats 4000000 in
/-- On whole staging memrefs, the inputs at known contents and the outputs at anything, the body runs to its end
    leaving the inputs as they were and the two output tiles at `outH` and `outC` of the inputs. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S512x2560 .bf16) (harg4 : arg4.IsWhole)
    (arg5 : Memref sig .tc .vmem S512x2560 .bf16) (harg5 : arg5.IsWhole) (arg6 : Memref sig .tc .vmem S1x2560 .f32) (harg6 : arg6.IsWhole)
    (arg7 : Memref sig .tc .vmem S1024x512 .f32) (harg7 : arg7.IsWhole) (arg8 : Memref sig .tc .vmem S1024x512 .f32) (harg8 : arg8.IsWhole)
    (x0 x1 x2 : Vec F S1024x512 .f32) (x3 x4 : Vec F S512x2560 .bf16) (x5 : Vec F S1x2560 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__xlstm_kernel i arg1 harg1 arg2 harg2 arg3 harg3 arg4 harg4 arg5 harg5 arg6 harg6 arg7 harg7 arg8 harg8) K := by
  simp only [cc0__xlstm_kernel_eq_skeleton]; unfold cc0__xlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The pipeline's proof data -/

/-- The arrays as the region finds them; after the body at point `t` each input tile still at its block and the two
    output tiles at `outH` / `outC` of the six input blocks; nothing owed, full shares, the untouched rest as invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the input tiles hold their blocks, so the body's triple applies; the invariant and the core's
    obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each window's array ends at what the proof data
    says the sixteen points wrote back, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Argument 0 is staged by input window 0 and never written back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- Argument 1 is staged by input window 1 and never written back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
/-- Argument 2 is staged by input window 2 and never written back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
/-- Argument 3 is no window's array: the region leaves it as it found it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- Argument 4 is no window's array: the region leaves it as it found it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- Argument 5 is no window's array: the region leaves it as it found it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- Argument 6 is no window's array: the region leaves it as it found it. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- Argument 7 is no window's array: the region leaves it as it found it. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- Argument 8 is no window's array: the region leaves it as it found it. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- Argument 9 is no window's array: the region leaves it as it found it. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- Argument 10 is no window's array: the region leaves it as it found it. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
/-- Argument 11 is no window's array: the region leaves it as it found it. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
/-- Argument 12 is no window's array: the region leaves it as it found it. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
/-- Argument 13 is no window's array: the region leaves it as it found it. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
/-- Argument 14 is no window's array: the region leaves it as it found it. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
/-- Argument 15 is no window's array: the region leaves it as it found it. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
/-- Argument 16 is no window's array: the region leaves it as it found it. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
/-- Argument 17 is no window's array: the region leaves it as it found it. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
/-- Argument 18 is no window's array: the region leaves it as it found it. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)
/-- Argument 19 is no window's array: the region leaves it as it found it. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)
/-- Argument 20 is no window's array: the region leaves it as it found it. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- The two results after the run are what the sixteen points wrote back. -/
theorem postH (r : PUnit × MemSt nD τ sig (Elt F)) (h : Pipeline.FramePost cfgs (dats m) 0 (V m) r) (c : Dev nD) :
    r.2.mem ((c : Thread nD τ).loc main_v15_0) = (dats m 0 c).arrAt 6 cfg0.N := (h c).1 6
theorem postC (r : PUnit × MemSt nD τ sig (Elt F)) (h : Pipeline.FramePost cfgs (dats m) 0 (V m) r) (c : Dev nD) :
    r.2.mem ((c : Thread nD τ).loc main_v15_1) = (dats m 0 c).arrAt 7 cfg0.N := (h c).1 7

/-- The frame: @main terminates without a fault and its twenty-one argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c, kept_main_arg19 m r h c, kept_main_arg20 m r h c⟩) (run_main m ρ)

end Cert.KernelIdeal.Frm

end
-- ==== Proof.Spec.lean ====
/-
  The gated cell both programs compute, as functions of the argument arrays over the extended reals.

  For a batch row `r` and a gate column `j < 2048` of the four stacked gates (input, forget, candidate,
  output: 512 columns each), the pre-activation is
      gate r j = (∑ₖ x[r,k]·Wx[j,k] + bx[j]) + (∑ₖ h[r,k]·Wh[j,k] + bh[j]),
  and for a column `j < 512` of the exponential gate, whose weight matrix is [512, 1024] with the
  x-part in columns 0..511 and the h-part in columns 512..1023,
      egate r j = (∑ₖ x[r,k]·We[j,k] + ∑ₖ h[r,k]·We[j,512+k]) + be[j].
  Then  cell r j = σ(gate r (512+j))·c_prev[r,j] + σ(gate r j)·tanh(gate r (1024+j))
  and   hid  r j = σ(gate r (1536+j))·tanh(cell r j)·exp(tanh(egate r j)).

  One side adds the two biases to their own products before joining the two halves, the other joins the
  two products first and adds the sum of the biases: `(A + a) + (B + b) = (A + B) + (a + b)`, which holds
  in any commutative additive semigroup, so on the extended reals with no finiteness assumption.
-/
import Idealize.ShloMosaic.PureOps.Ideal
import Idealize.ShloMosaic.PureOps.Ideal.Laws
import Idealize.ShloMosaic.Lib.ValueIdx

noncomputable section

open scoped BigOperators

namespace Cert.Xlstm

open Idealize.ShloMosaic Idealize.ShloMosaic.ValueIdx

abbrev SX : Shape := ⟨2, ![16384, 512]⟩
abbrev SW4 : Shape := ⟨2, ![2048, 512]⟩
abbrev Sb4 : Shape := ⟨1, ![2048]⟩
abbrev SWe : Shape := ⟨2, ![512, 1024]⟩
abbrev Sbe : Shape := ⟨1, ![512]⟩

section
variable (x h cp : SX.Idx → EReal) (Wx Wh : SW4.Idx → EReal) (bx bh : Sb4.Idx → EReal)
  (We : SWe.Idx → EReal) (be : Sbe.Idx → EReal)

/-- Pre-activation of stacked gate column `j` at batch row `r`. -/
def gate (r : Fin 16384) (j : Fin 2048) : EReal :=
  ((∑ k : Fin 512, x (ix2 r k) * Wx (ix2 j k)) + bx (ix1 j)) + ((∑ k : Fin 512, h (ix2 r k) * Wh (ix2 j k)) + bh (ix1 j))

/-- The same with the two products joined first and the two biases added to each other. -/
def gateJoined (r : Fin 16384) (j : Fin 2048) : EReal :=
  ((∑ k : Fin 512, x (ix2 r k) * Wx (ix2 j k)) + (∑ k : Fin 512, h (ix2 r k) * Wh (ix2 j k))) + (bx (ix1 j) + bh (ix1 j))

theorem gateJoined_eq (r : Fin 16384) (j : Fin 2048) : gateJoined x h Wx Wh bx bh r j = gate x h Wx Wh bx bh r j := by
  unfold gateJoined gate
  exact add_add_add_comm _ _ _ _

/-- Pre-activation of the exponential gate's column `j` at batch row `r`. -/
def egate (r : Fin 16384) (j : Fin 512) : EReal :=
  ((∑ k : Fin 512, x (ix2 r k) * We (ix2 j (⟨k.val, by omega⟩ : Fin 1024)))
    + (∑ k : Fin 512, h (ix2 r k) * We (ix2 j (⟨512 + k.val, by omega⟩ : Fin 1024)))) + be (ix1 j)

/-- The new cell state. -/
def cell (r : Fin 16384) (j : Fin 512) : EReal :=
  Ideal.logistic (gate x h Wx Wh bx bh r ⟨512 + j.val, by omega⟩) * cp (ix2 r j)
    + Ideal.logistic (gate x h Wx Wh bx bh r ⟨j.val, by omega⟩) * Ideal.tanh (gate x h Wx Wh bx bh r ⟨1024 + j.val, by omega⟩)

/-- The new hidden state. -/
def hid (r : Fin 16384) (j : Fin 512) : EReal :=
  Ideal.logistic (gate x h Wx Wh bx bh r ⟨1536 + j.val, by omega⟩) * Ideal.tanh (cell x h cp Wx Wh bx bh r j)
    * Ideal.exp (Ideal.tanh (egate x h We be r j))

/-- The two result arrays. -/
def cellArr : SX.Idx → EReal := fun i => cell x h cp Wx Wh bx bh (i 0) (i 1)
def hidArr : SX.Idx → EReal := fun i => hid x h cp Wx Wh bx bh We be (i 0) (i 1)

end

/-- The f32 pattern of 1.0 is the real number one. -/
theorem one_f32 : Ideal.ofBits .f32 0x3F800000#32 = 1 := by
  simp [Ideal.ofBits, Ideal.ieee, -EReal.coe_mul]; norm_num

end Cert.Xlstm

end
-- ==== Proof.KernelPay.lean ====
/-
  The body's arithmetic on one batch tile, read at an index, at the extended reals.

  For a tile row `p` and a column `col < 2560` of the fused pre-activation,
      pre p col = (∑ₖ x[p,k]·wx[k,col] + ∑ₖ h[p,k]·wh[k,col]) + b[0,col]:
  the two matrix products into a zero accumulator are plain sums, the narrowing of the two activations to
  sixteen bits is the identity here, and the bias row is broadcast down the rows. The five column slices
  of width 512 are the four gates and the exponential gate; the two stored tiles are
      c = σ(pre p (512+q))·c_prev[p,q] + σ(pre p q)·tanh(pre p (1024+q)),
      h = σ(pre p (1536+q))·tanh(c)·exp(tanh(pre p (2048+q))).
-/
import proofs.«120805_j76390288327651_2_alg».proof.Proof.Gen.KernelIdeal.Skeleton
import proofs.«120805_j76390288327651_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.Xlstm
open Idealize.ShloMosaic Idealize.ShloMosaic.ValueIdx

theorem lhs_0 (i : S1024x2560.Idx) (q : dot_S1024x512_S512x2560_S1024x2560_1_0_0_1_n_n.contr.Idx) : (dot_S1024x512_S512x2560_S1024x2560_1_0_0_1_n_n.lhsIdx i q 0).val = (i 0).val := by
  unfold DotDims.lhsIdx
  rw [dif_neg (show ¬(0 : Fin S1024x512.rank) ∈ dot_S1024x512_S512x2560_S1024x2560_1_0_0_1_n_n.lhsBatch by decide), dif_pos (show (0 : Fin S1024x512.rank) ∈ dot_S1024x512_S512x2560_S1024x2560_1_0_0_1_n_n.lhsNonContracting by decide)]
  rfl
theorem lhs_1 (i : S1024x2560.Idx) (q : dot_S1024x512_S512x2560_S1024x2560_1_0_0_1_n_n.contr.Idx) : (dot_S1024x512_S512x2560_S1024x2560_1_0_0_1_n_n.lhsIdx i q 1).val = (q ⟨0, by decide⟩).val :=
  dot_S1024x512_S512x2560_S1024x2560_1_0_0_1_n_n.lhsIdx_val_of_single rfl i q
theorem rhs_0 (i : S1024x2560.Idx) (q : dot_S1024x512_S512x2560_S1024x2560_1_0_0_1_n_n.contr.Idx) : (dot_S1024x512_S512x2560_S1024x2560_1_0_0_1_n_n.rhsIdx i q 0).val = (q ⟨0, by decide⟩).val :=
  dot_S1024x512_S512x2560_S1024x2560_1_0_0_1_n_n.rhsIdx_val_of_single rfl i q
theorem rhs_1 (i : S1024x2560.Idx) (q : dot_S1024x512_S512x2560_S1024x2560_1_0_0_1_n_n.contr.Idx) : (dot_S1024x512_S512x2560_S1024x2560_1_0_0_1_n_n.rhsIdx i q 1).val = (i 1).val := by
  unfold DotDims.rhsIdx
  rw [dif_neg (show ¬(1 : Fin S512x2560.rank) ∈ dot_S1024x512_S512x2560_S1024x2560_1_0_0_1_n_n.rhsBatch by decide), dif_pos (show (1 : Fin S512x2560.rank) ∈ dot_S1024x512_S512x2560_S1024x2560_1_0_0_1_n_n.rhsNonContracting by decide)]
  rfl

/-- The matrix unit's product into a zero accumulator, at (p, col), is the row-by-column sum. -/
theorem matmul_at (a : FVec Ideal S1024x512 .bf16) (w : FVec Ideal S512x2560 .bf16) (p : Fin 1024) (col : Fin 2560) :
    matmul (F := Ideal) dot_S1024x512_S512x2560_S1024x2560_1_0_0_1_n_n none a w (constant S1024x2560 .f32 0x00000000#32) (ix2 p col)
      = ∑ k : Fin 512, a (ix2 p k) * w (ix2 k col) := by
  show FloatOps.matmul dot_S1024x512_S512x2560_S1024x2560_1_0_0_1_n_n none a w (constant S1024x2560 .f32 0x00000000#32) (ix2 p col) = _
  rw [Ideal.matmul_constant_zero_apply, ← Equiv.sum_comp (ValueIdx.contrEquiv1 dot_S1024x512_S512x2560_S1024x2560_1_0_0_1_n_n 512 rfl rfl).symm]
  refine Finset.sum_congr rfl fun k _ => ?_
  have hk := ValueIdx.contrEquiv1_symm_val dot_S1024x512_S512x2560_S1024x2560_1_0_0_1_n_n 512 rfl rfl k
  have el : dot_S1024x512_S512x2560_S1024x2560_1_0_0_1_n_n.lhsIdx (ix2 p col) ((ValueIdx.contrEquiv1 dot_S1024x512_S512x2560_S1024x2560_1_0_0_1_n_n 512 rfl rfl).symm k) = ix2 p k := funext fun a => Fin.ext (by
    match a with
    | ⟨0, _⟩ => exact lhs_0 _ _
    | ⟨1, _⟩ => exact (lhs_1 _ _).trans hk)
  have er : dot_S1024x512_S512x2560_S1024x2560_1_0_0_1_n_n.rhsIdx (ix2 p col) ((ValueIdx.contrEquiv1 dot_S1024x512_S512x2560_S1024x2560_1_0_0_1_n_n 512 rfl rfl).symm k) = ix2 k col := funext fun a => Fin.ext (by
    match a with
    | ⟨0, _⟩ => exact (rhs_0 _ _).trans hk
    | ⟨1, _⟩ => exact rhs_1 _ _)
  rw [el, er]

section
variable (x0 x1 x2 : Vec Ideal S1024x512 .f32) (w3 w4 : Vec Ideal S512x2560 .bf16) (b5 : Vec Ideal S1x2560 .f32)

/-- The fused pre-activation of the tile at (p, col). -/
def pre (p : Fin 1024) (col : Fin 2560) : EReal :=
  ((∑ k : Fin 512, x0 (ix2 p k) * w3 (ix2 k col)) + (∑ k : Fin 512, x1 (ix2 p k) * w4 (ix2 k col))) + b5 (ix2 (0 : Fin 1) col)

theorem pay1_apply (p : Fin 1024) (col : Fin 2560) :
    k0_pay1 (F := Ideal) x0 x1 w3 w4 b5 (ix2 p col) = pre x0 x1 w3 w4 b5 p col := by
  unfold k0_pay1 pre
  show FloatOps.addf (FloatOps.addf
      (matmul (F := Ideal) dot_S1024x512_S512x2560_S1024x2560_1_0_0_1_n_n none (truncf .bf16 x0 bitsLt_bf16_f32) (shapeCast S512x2560 w3 shapeCasts_S512x2560_S512x2560) (constant S1024x2560 .f32 0x00000000#32) (ix2 p col))
      (matmul (F := Ideal) dot_S1024x512_S512x2560_S1024x2560_1_0_0_1_n_n none (truncf .bf16 x1 bitsLt_bf16_f32) (shapeCast S512x2560 w4 shapeCasts_S512x2560_S512x2560) (constant S1024x2560 .f32 0x00000000#32) (ix2 p col)))
      (broadcastTo S1024x2560 (shapeCast S1x2560 b5 shapeCasts_S1x2560_S1x2560) broadcasts_S1x2560_S1024x2560 (ix2 p col)) = _
  rw [shapeCast_self, shapeCast_self, shapeCast_self, matmul_at, matmul_at,
    broadcastTo_apply b5 broadcasts_S1x2560_S1024x2560 (ix2 p col) (ix2 (0 : Fin 1) col) (fun a => match a with
      | ⟨0, _⟩ => by show (0 : Nat) = if (1 : Nat) = 1 then 0 else p.val; rw [if_pos rfl]
      | ⟨1, _⟩ => by show col.val = if (2560 : Nat) = 1 then 0 else col.val; rw [if_neg (by decide)])]
  rfl

/-- The stored cell tile at (p, q). -/
theorem pay2_apply (p : Fin 1024) (q : Fin 512) :
    k0_pay2 (F := Ideal) x0 x1 x2 w3 w4 b5 (ix2 p q)
      = Ideal.logistic (pre x0 x1 w3 w4 b5 p ⟨512 + q.val, by omega⟩) * x2 (ix2 p q)
        + Ideal.logistic (pre x0 x1 w3 w4 b5 p ⟨q.val, by omega⟩) * Ideal.tanh (pre x0 x1 w3 w4 b5 p ⟨1024 + q.val, by omega⟩) := by
  unfold k0_pay2
  show FloatOps.addf (FloatOps.mulf (FloatOps.logistic (extractStridedSlice S1024x512 ![0, 512] (k0_pay1 (F := Ideal) x0 x1 w3 w4 b5) slices_S1024x2560_o0_512_S1024x512 (ix2 p q))) (x2 (ix2 p q)))
      (FloatOps.mulf (FloatOps.logistic (extractStridedSlice S1024x512 ![0, 0] (k0_pay1 (F := Ideal) x0 x1 w3 w4 b5) slices_S1024x2560_o0_0_S1024x512 (ix2 p q)))
        (FloatOps.tanh (extractStridedSlice S1024x512 ![0, 1024] (k0_pay1 (F := Ideal) x0 x1 w3 w4 b5) slices_S1024x2560_o0_1024_S1024x512 (ix2 p q)))) = _
  rw [extractStridedSlice_apply ![0, 512] _ slices_S1024x2560_o0_512_S1024x512 (ix2 p q) (ix2 p (⟨512 + q.val, by omega⟩ : Fin 2560)) (fun a => match a with
      | ⟨0, _⟩ => by show p.val = 0 + p.val; omega
      | ⟨1, _⟩ => by show 512 + q.val = 512 + q.val; rfl),
    extractStridedSlice_apply ![0, 0] _ slices_S1024x2560_o0_0_S1024x512 (ix2 p q) (ix2 p (⟨q.val, by omega⟩ : Fin 2560)) (fun a => match a with
      | ⟨0, _⟩ => by show p.val = 0 + p.val; omega
      | ⟨1, _⟩ => by show q.val = 0 + q.val; omega),
    extractStridedSlice_apply ![0, 1024] _ slices_S1024x2560_o0_1024_S1024x512 (ix2 p q) (ix2 p (⟨1024 + q.val, by omega⟩ : Fin 2560)) (fun a => match a with
      | ⟨0, _⟩ => by show p.val = 0 + p.val; omega
      | ⟨1, _⟩ => by show 1024 + q.val = 1024 + q.val; rfl),
    pay1_apply, pay1_apply, pay1_apply]
  rfl

/-- The stored hidden tile at (p, q). -/
theorem pay3_apply (p : Fin 1024) (q : Fin 512) :
    k0_pay3 (F := Ideal) x0 x1 x2 w3 w4 b5 (ix2 p q)
      = Ideal.logistic (pre x0 x1 w3 w4 b5 p ⟨1536 + q.val, by omega⟩) * Ideal.tanh (k0_pay2 (F := Ideal) x0 x1 x2 w3 w4 b5 (ix2 p q))
        * Ideal.exp (Ideal.tanh (pre x0 x1 w3 w4 b5 p ⟨2048 + q.val, by omega⟩)) := by
  unfold k0_pay3
  show FloatOps.mulf (FloatOps.mulf (FloatOps.logistic (extractStridedSlice S1024x512 ![0, 1536] (k0_pay1 (F := Ideal) x0 x1 w3 w4 b5) slices_S1024x2560_o0_1536_S1024x512 (ix2 p q)))
        (FloatOps.tanh (k0_pay2 (F := Ideal) x0 x1 x2 w3 w4 b5 (ix2 p q))))
      (FloatOps.exp (FloatOps.tanh (extractStridedSlice S1024x512 ![0, 2048] (k0_pay1 (F := Ideal) x0 x1 w3 w4 b5) slices_S1024x2560_o0_2048_S1024x512 (ix2 p q)))) = _
  rw [extractStridedSlice_apply ![0, 1536] _ slices_S1024x2560_o0_1536_S1024x512 (ix2 p q) (ix2 p (⟨1536 + q.val, by omega⟩ : Fin 2560)) (fun a => match a with
      | ⟨0, _⟩ => by show p.val = 0 + p.val; omega
      | ⟨1, _⟩ => by show 1536 + q.val = 1536 + q.val; rfl),
    extractStridedSlice_apply ![0, 2048] _ slices_S1024x2560_o0_2048_S1024x512 (ix2 p q) (ix2 p (⟨2048 + q.val, by omega⟩ : Fin 2560)) (fun a => match a with
      | ⟨0, _⟩ => by show p.val = 0 + p.val; omega
      | ⟨1, _⟩ => by show 2048 + q.val = 2048 + q.val; rfl),
    pay1_apply, pay1_apply]
  rfl

end

end Cert.KernelIdeal.Pay

end
-- ==== Proof.KernelTile.lean ====
/-
  One batch tile against the whole arrays. If a tile's rows are rows `r` of the batch (tile row `p` is batch row
  `r`), the two resident matrices are the transposed stacks with the exponential gate's halves appended, and the bias
  row is the sum of the stacked biases followed by the exponential gate's bias, then the tile's fused pre-activation
  at a stacked-gate column is the specification's gate — the two products joined first and the two biases added to
  each other, which is the same sum — and at an appended column the exponential gate; so the two stored tiles are the
  specification's cell and hidden state at batch row `r`.
-/
import proofs.«120805_j76390288327651_2_alg».proof.Proof.KernelPay

noncomputable section

open scoped BigOperators

namespace Cert.KernelIdeal.Tile

open Cert.KernelIdeal Cert.KernelIdeal.Gen Cert.KernelIdeal.Pay Cert.Xlstm
open Idealize.ShloMosaic Idealize.ShloMosaic.ValueIdx

section
variable (x0 x1 x2 : Vec Ideal S1024x512 .f32) (w3 w4 : Vec Ideal S512x2560 .bf16) (b5 : Vec Ideal S1x2560 .f32)
  (X H C : SX.Idx → EReal) (Wx Wh : SW4.Idx → EReal) (bx bh : Sb4.Idx → EReal) (We : SWe.Idx → EReal) (be : Sbe.Idx → EReal)
  (r : Fin 16384) (p : Fin 1024)
  (h0 : ∀ k : Fin 512, x0 (ix2 p k) = X (ix2 r k))
  (h1 : ∀ k : Fin 512, x1 (ix2 p k) = H (ix2 r k))
  (h3 : ∀ (k : Fin 512) (j : Fin 2048), w3 (ix2 k (⟨j.val, by omega⟩ : Fin 2560)) = Wx (ix2 j k))
  (h4 : ∀ (k : Fin 512) (j : Fin 2048), w4 (ix2 k (⟨j.val, by omega⟩ : Fin 2560)) = Wh (ix2 j k))
  (h5 : ∀ j : Fin 2048, b5 (ix2 (0 : Fin 1) (⟨j.val, by omega⟩ : Fin 2560)) = bx (ix1 j) + bh (ix1 j))
  (h3e : ∀ (k : Fin 512) (j : Fin 512), w3 (ix2 k (⟨2048 + j.val, by omega⟩ : Fin 2560)) = We (ix2 j (⟨k.val, by omega⟩ : Fin 1024)))
  (h4e : ∀ (k : Fin 512) (j : Fin 512), w4 (ix2 k (⟨2048 + j.val, by omega⟩ : Fin 2560)) = We (ix2 j (⟨512 + k.val, by omega⟩ : Fin 1024)))
  (h5e : ∀ j : Fin 512, b5 (ix2 (0 : Fin 1) (⟨2048 + j.val, by omega⟩ : Fin 2560)) = be (ix1 j))

include h0 h1 h3 h4 h5 in
/-- At a stacked-gate column the tile's pre-activation is the specification's gate. -/
theorem pre_stack (j : Fin 2048) : pre x0 x1 w3 w4 b5 p (⟨j.val, by omega⟩ : Fin 2560) = gate X H Wx Wh bx bh r j := by
  unfold pre
  simp only [h0, h1, h3, h4, h5]
  exact gateJoined_eq X H Wx Wh bx bh r j

include h0 h1 h3e h4e h5e in
/-- At an appended column it is the exponential gate. -/
theorem pre_exp (j : Fin 512) : pre x0 x1 w3 w4 b5 p (⟨2048 + j.val, by omega⟩ : Fin 2560) = egate X H We be r j := by
  unfold pre egate
  simp only [h0, h1, h3e, h4e, h5e]

include h0 h1 h3 h4 h5 in
/-- The stored cell tile at (p, q) is the specification's cell at batch row r. -/
theorem tile_cell (h2 : ∀ q : Fin 512, x2 (ix2 p q) = C (ix2 r q)) (q : Fin 512) :
    k0_pay2 (F := Ideal) x0 x1 x2 w3 w4 b5 (ix2 p q) = cell X H C Wx Wh bx bh r q := by
  rw [pay2_apply, h2 q]
  unfold cell
  rw [← pre_stack x0 x1 w3 w4 b5 X H Wx Wh bx bh r p h0 h1 h3 h4 h5 ⟨512 + q.val, by omega⟩,
    ← pre_stack x0 x1 w3 w4 b5 X H Wx Wh bx bh r p h0 h1 h3 h4 h5 ⟨q.val, by omega⟩,
    ← pre_stack x0 x1 w3 w4 b5 X H Wx Wh bx bh r p h0 h1 h3 h4 h5 ⟨1024 + q.val, by omega⟩]

include h0 h1 h3 h4 h5 h3e h4e h5e in
/-- The stored hidden tile at (p, q) is the specification's hidden state at batch row r. -/
theorem tile_hid (h2 : ∀ q : Fin 512, x2 (ix2 p q) = C (ix2 r q)) (q : Fin 512) :
    k0_pay3 (F := Ideal) x0 x1 x2 w3 w4 b5 (ix2 p q) = hid X H C Wx Wh bx bh We be r q := by
  rw [pay3_apply, tile_cell x0 x1 x2 w3 w4 b5 X H C Wx Wh bx bh r p h0 h1 h3 h4 h5 h2 q]
  unfold hid
  rw [← pre_stack x0 x1 w3 w4 b5 X H Wx Wh bx bh r p h0 h1 h3 h4 h5 ⟨1536 + q.val, by omega⟩,
    ← pre_exp x0 x1 w3 w4 b5 X H We be r p h0 h1 h3e h4e h5e q]

end

end Cert.KernelIdeal.Tile

end
-- ==== Proof.KernelHost.lean ====
/-
  What the region finds in its three resident operands, as functions of the argument arrays.

  The host stacks the four x-side weight matrices on axis 0 and appends the left half of the exponential
  gate's matrix: a [2560, 512] matrix whose row `j < 2048` is row `j` of the stack and whose row `2048 + j` is
  row `j` of that half; it transposes it and narrows it to sixteen bits (the identity here). The h side is the
  same with the right half. The bias row is the sum of the two stacked biases followed by the exponential
  gate's bias, reshaped to one row.
-/
import proofs.«120805_j76390288327651_2_alg».proof.Proof.FrameKernelIdeal
import proofs.«120805_j76390288327651_2_alg».proof.Proof.Spec
import Idealize.ShloMosaic.Lib.Pipeline.Value
import Idealize.ShloMosaic.Lib.StableHlo.Run
import Idealize.ShloMosaic.Lib.ValueIdx

noncomputable section

namespace Cert.KernelIdeal.HostVal

open Cert.KernelIdeal Cert.KernelIdeal.Gen Cert.KernelIdeal.Frm Cert.Xlstm
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The four x-side weight matrices stacked on axis 0. -/
def Wx4 (c : Dev nD) : FVec Ideal S2048x512 .f32 := concatenate S2048x512 0 [⟨S512x512, (m ((c : Thread nD τ).loc main_arg3))⟩, ⟨S512x512, (m ((c : Thread nD τ).loc main_arg7))⟩, ⟨S512x512, (m ((c : Thread nD τ).loc main_arg11))⟩, ⟨S512x512, (m ((c : Thread nD τ).loc main_arg15))⟩] concatenates_S512x512_S512x512_S512x512_S512x512_S2048x512_d0
/-- The four h-side weight matrices stacked on axis 0. -/
def Wh4 (c : Dev nD) : FVec Ideal S2048x512 .f32 := concatenate S2048x512 0 [⟨S512x512, (m ((c : Thread nD τ).loc main_arg5))⟩, ⟨S512x512, (m ((c : Thread nD τ).loc main_arg9))⟩, ⟨S512x512, (m ((c : Thread nD τ).loc main_arg13))⟩, ⟨S512x512, (m ((c : Thread nD τ).loc main_arg17))⟩] concatenates_S512x512_S512x512_S512x512_S512x512_S2048x512_d0
/-- The four x-side biases stacked. -/
def bx4 (c : Dev nD) : FVec Ideal S2048 .f32 := concatenate S2048 0 [⟨S512, (m ((c : Thread nD τ).loc main_arg4))⟩, ⟨S512, (m ((c : Thread nD τ).loc main_arg8))⟩, ⟨S512, (m ((c : Thread nD τ).loc main_arg12))⟩, ⟨S512, (m ((c : Thread nD τ).loc main_arg16))⟩] concatenates_S512_S512_S512_S512_S2048_d0
/-- The four h-side biases stacked. -/
def bh4 (c : Dev nD) : FVec Ideal S2048 .f32 := concatenate S2048 0 [⟨S512, (m ((c : Thread nD τ).loc main_arg6))⟩, ⟨S512, (m ((c : Thread nD τ).loc main_arg10))⟩, ⟨S512, (m ((c : Thread nD τ).loc main_arg14))⟩, ⟨S512, (m ((c : Thread nD τ).loc main_arg18))⟩] concatenates_S512_S512_S512_S512_S2048_d0

/-- The x-side resident operand: the transposed, narrowed stack with the exponential gate's left half appended. -/
theorem V_wx (c : Dev nD) : V m c main_v11
    = (truncf (F := Ideal) .bf16 (transpose S512x2560 [1, 0] (concatenate S2560x512 0 [⟨S2048x512, Wx4 m c⟩, ⟨S512x512, extractStridedSlice S512x512 ![0, 0] (m ((c : Thread nD τ).loc main_arg19)) slices_S512x1024_S512x512_0_0⟩] concatenates_S2048x512_S512x512_S2560x512_d0) transposes_S2560x512_S512x2560_1_0) bitsLt_bf16_f32 : FVec Ideal S512x2560 .bf16) := by
  unfold Wx4
  dsimp only [V]
  simp only [hostOps0, List.flatten_cons, List.flatten_nil, List.append_nil]
  after_results
  rfl

/-- The h-side resident operand. -/
theorem V_wh (c : Dev nD) : V m c main_v13
    = (truncf (F := Ideal) .bf16 (transpose S512x2560 [1, 0] (concatenate S2560x512 0 [⟨S2048x512, Wh4 m c⟩, ⟨S512x512, extractStridedSlice S512x512 ![0, 512] (m ((c : Thread nD τ).loc main_arg19)) slices_S512x1024_S512x512_0_512⟩] concatenates_S2048x512_S512x512_S2560x512_d0) transposes_S2560x512_S512x2560_1_0) bitsLt_bf16_f32 : FVec Ideal S512x2560 .bf16) := by
  unfold Wh4
  dsimp only [V]
  simp only [hostOps0, List.flatten_cons, List.flatten_nil, List.append_nil]
  after_results
  rfl

/-- The bias row. -/
theorem V_b (c : Dev nD) : V m c main_v14
    = (shapeCast S1x2560 (concatenate S2560 0 [⟨S2048, addf (F := Ideal) (φ := .f32) (bx4 m c) (bh4 m c)⟩, ⟨S512, (m ((c : Thread nD τ).loc main_arg20))⟩] concatenates_S2048_S512_S2560_d0) shapeCasts_S2560_S1x2560 : FVec Ideal S1x2560 .f32) := by
  unfold bx4 bh4
  dsimp only [V]
  simp only [hostOps0, List.flatten_cons, List.flatten_nil, List.append_nil]
  after_results
  rfl

/-! ## Read at an index -/

/-- Narrowing to sixteen bits is the identity on the extended reals. -/
theorem truncf_at {s : Shape} (v : FVec Ideal s .f32) (i : s.Idx) :
    (truncf (F := Ideal) .bf16 v bitsLt_bf16_f32 i : EReal) = (v i : EReal) := rfl

theorem wx_stack (c : Dev nD) (k : Fin 512) (j : Fin 2048) :
    V m c main_v11 (ix2 k (⟨j.val, by omega⟩ : Fin 2560)) = Wx4 m c (ix2 j k) := by
  rw [V_wx]
  rw [truncf_at]
  rw [transpose_apply [1, 0] _ transposes_S2560x512_S512x2560_1_0 (ix2 k (⟨j.val, by omega⟩ : Fin 2560)) (ix2 (⟨j.val, by omega⟩ : Fin 2560) k) (fun b => match b with
    | ⟨0, _⟩ => rfl
    | ⟨1, _⟩ => rfl)]
  exact concatenate_pair_apply_left 0 _ _ concatenates_S2048x512_S512x512_S2560x512_d0 (ix2 (⟨j.val, by omega⟩ : Fin 2560) k) rfl (ix2 j k) (fun b => match b with
    | ⟨0, _⟩ => rfl
    | ⟨1, _⟩ => rfl)

theorem wx_exp (c : Dev nD) (k : Fin 512) (j : Fin 512) :
    V m c main_v11 (ix2 k (⟨2048 + j.val, by omega⟩ : Fin 2560)) = (m ((c : Thread nD τ).loc main_arg19)) (ix2 j (⟨k.val, by omega⟩ : Fin 1024)) := by
  rw [V_wx]
  rw [truncf_at]
  rw [transpose_apply [1, 0] _ transposes_S2560x512_S512x2560_1_0 (ix2 k (⟨2048 + j.val, by omega⟩ : Fin 2560)) (ix2 (⟨2048 + j.val, by omega⟩ : Fin 2560) k) (fun b => match b with
    | ⟨0, _⟩ => rfl
    | ⟨1, _⟩ => rfl)]
  rw [concatenate_pair_apply_right 0 _ _ concatenates_S2048x512_S512x512_S2560x512_d0 (ix2 (⟨2048 + j.val, by omega⟩ : Fin 2560) k) rfl rfl (ix2 j k) (fun b hb => match b, hb with
    | ⟨0, _⟩, hb => absurd rfl hb
    | ⟨1, _⟩, _ => rfl) (by show j.val + 2048 = 2048 + j.val; omega)]
  exact extractStridedSlice_apply ![0, 0] _ slices_S512x1024_S512x512_0_0 (ix2 j k) (ix2 j (⟨k.val, by omega⟩ : Fin 1024)) (fun a => match a with
    | ⟨0, _⟩ => by show j.val = 0 + j.val; omega
    | ⟨1, _⟩ => by show k.val = 0 + k.val; omega)

theorem wh_stack (c : Dev nD) (k : Fin 512) (j : Fin 2048) :
    V m c main_v13 (ix2 k (⟨j.val, by omega⟩ : Fin 2560)) = Wh4 m c (ix2 j k) := by
  rw [V_wh]
  rw [truncf_at]
  rw [transpose_apply [1, 0] _ transposes_S2560x512_S512x2560_1_0 (ix2 k (⟨j.val, by omega⟩ : Fin 2560)) (ix2 (⟨j.val, by omega⟩ : Fin 2560) k) (fun b => match b with
    | ⟨0, _⟩ => rfl
    | ⟨1, _⟩ => rfl)]
  exact concatenate_pair_apply_left 0 _ _ concatenates_S2048x512_S512x512_S2560x512_d0 (ix2 (⟨j.val, by omega⟩ : Fin 2560) k) rfl (ix2 j k) (fun b => match b with
    | ⟨0, _⟩ => rfl
    | ⟨1, _⟩ => rfl)

theorem wh_exp (c : Dev nD) (k : Fin 512) (j : Fin 512) :
    V m c main_v13 (ix2 k (⟨2048 + j.val, by omega⟩ : Fin 2560)) = (m ((c : Thread nD τ).loc main_arg19)) (ix2 j (⟨512 + k.val, by omega⟩ : Fin 1024)) := by
  rw [V_wh]
  rw [truncf_at]
  rw [transpose_apply [1, 0] _ transposes_S2560x512_S512x2560_1_0 (ix2 k (⟨2048 + j.val, by omega⟩ : Fin 2560)) (ix2 (⟨2048 + j.val, by omega⟩ : Fin 2560) k) (fun b => match b with
    | ⟨0, _⟩ => rfl
    | ⟨1, _⟩ => rfl)]
  rw [concatenate_pair_apply_right 0 _ _ concatenates_S2048x512_S512x512_S2560x512_d0 (ix2 (⟨2048 + j.val, by omega⟩ : Fin 2560) k) rfl rfl (ix2 j k) (fun b hb => match b, hb with
    | ⟨0, _⟩, hb => absurd rfl hb
    | ⟨1, _⟩, _ => rfl) (by show j.val + 2048 = 2048 + j.val; omega)]
  exact extractStridedSlice_apply ![0, 512] _ slices_S512x1024_S512x512_0_512 (ix2 j k) (ix2 j (⟨512 + k.val, by omega⟩ : Fin 1024)) (fun a => match a with
    | ⟨0, _⟩ => by show j.val = 0 + j.val; omega
    | ⟨1, _⟩ => by show 512 + k.val = 512 + k.val; rfl)

theorem b_stack (c : Dev nD) (j : Fin 2048) :
    V m c main_v14 (ix2 (0 : Fin 1) (⟨j.val, by omega⟩ : Fin 2560)) = bx4 m c (ix1 j) + bh4 m c (ix1 j) := by
  rw [V_b, shapeCast_addUnit_apply ![2560] _ shapeCasts_S2560_S1x2560]
  exact concatenate_pair_apply_left 0 _ _ concatenates_S2048_S512_S2560_d0 _ rfl (ix1 j) (fun b => match b with
    | ⟨0, _⟩ => rfl)

theorem b_exp (c : Dev nD) (j : Fin 512) :
    V m c main_v14 (ix2 (0 : Fin 1) (⟨2048 + j.val, by omega⟩ : Fin 2560)) = (m ((c : Thread nD τ).loc main_arg20)) (ix1 j) := by
  rw [V_b, shapeCast_addUnit_apply ![2560] _ shapeCasts_S2560_S1x2560]
  exact concatenate_pair_apply_right 0 _ _ concatenates_S2048_S512_S2560_d0 _ rfl rfl (ix1 j) (fun b hb => match b, hb with
    | ⟨0, _⟩, hb => absurd rfl hb) (by show j.val + 2048 = 2048 + j.val; omega)

end Cert.KernelIdeal.HostVal

end
-- ==== Proof.KernelValue.lean ====
/-
  From tiles to arrays: the two results of the idealized kernel's run are the specification's hidden and cell
  arrays of the argument arrays.

  Point `t` of the sixteen stages rows `1024·t … 1024·t + 1023` of the three batch inputs and of the two results,
  and the whole of the three resident operands; so what it writes back is block `t` of the specification's arrays,
  and since every batch row `r` lies in the block of point `r / 1024`, the results end holding those arrays whole.
-/
import proofs.«120805_j76390288327651_2_alg».proof.Proof.FrameKernelIdeal
import proofs.«120805_j76390288327651_2_alg».proof.Proof.KernelTile
import proofs.«120805_j76390288327651_2_alg».proof.Proof.KernelHost
import Idealize.ShloMosaic.Lib.Pipeline.Value

set_option maxRecDepth 16384

noncomputable section

namespace Cert.KernelIdeal.Val

open Cert.KernelIdeal Cert.KernelIdeal.Gen Cert.KernelIdeal.Frm Cert.KernelIdeal.HostVal Cert.KernelIdeal.Tile Cert.Xlstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's two arrays of this memory's arguments. -/
def cellK (c : Dev nD) : S16384x512.Idx → EReal := cellArr (m ((c : Thread nD τ).loc main_arg0)) (m ((c : Thread nD τ).loc main_arg1)) (m ((c : Thread nD τ).loc main_arg2)) (Wx4 m c) (Wh4 m c) (bx4 m c) (bh4 m c)
def hidK (c : Dev nD) : S16384x512.Idx → EReal := hidArr (m ((c : Thread nD τ).loc main_arg0)) (m ((c : Thread nD τ).loc main_arg1)) (m ((c : Thread nD τ).loc main_arg2)) (Wx4 m c) (Wh4 m c) (bx4 m c) (bh4 m c) (m ((c : Thread nD τ).loc main_arg19)) (m ((c : Thread nD τ).loc main_arg20))

theorem hz : (![0, 0] : Fin 2 → Nat) = fun _ => 0 := funext fun a => by fin_cases a <;> rfl

/-- The index maps over the grid: the five batch-tiled windows are at block row `t`, the resident ones at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The batch row that tile row `p` of point `t` is. -/
def rowOf (t : Fin cfg0.N) (p : Fin 1024) : Fin 16384 :=
  ⟨t.val * 1024 + p.val, by have := t.isLt; have hN : cfg0.N = 16 := N_0; omega⟩

theorem rowOf_val (t : Fin cfg0.N) (p : Fin 1024) : (rowOf t p).val = t.val * 1024 + p.val := rfl

/-- Tile row `p` of point `t`'s block of input window 0 is batch row `1024·t + p` of argument 0. -/
theorem blk0 (c : Dev nD) (t : Fin cfg0.N) (p : Fin 1024) (k : Fin 512) :
    iblk m c 0 t (ix2 p k) = (m ((c : Thread nD τ).loc main_arg0)) (ix2 (rowOf t p) k) := by
  obtain ⟨e0, e1, e2, e3, e4, e5, e6, e7, e8, e9, e10, e11, e12, e13, e14, e15⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 512 + 1 * k.val = k.val; rw [e1]; omega

/-- Tile row `p` of point `t`'s block of input window 1 is batch row `1024·t + p` of argument 1. -/
theorem blk1 (c : Dev nD) (t : Fin cfg0.N) (p : Fin 1024) (k : Fin 512) :
    iblk m c 1 t (ix2 p k) = (m ((c : Thread nD τ).loc main_arg1)) (ix2 (rowOf t p) k) := by
  obtain ⟨e0, e1, e2, e3, e4, e5, e6, e7, e8, e9, e10, e11, e12, e13, e14, e15⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = t.val * 1024 + p.val; rw [e2]; omega
  | ⟨1, _⟩ => show win0_1.index t (1 : Fin 2) * 512 + 1 * k.val = k.val; rw [e3]; omega

/-- Tile row `p` of point `t`'s block of input window 2 is batch row `1024·t + p` of argument 2. -/
theorem blk2 (c : Dev nD) (t : Fin cfg0.N) (p : Fin 1024) (k : Fin 512) :
    iblk m c 2 t (ix2 p k) = (m ((c : Thread nD τ).loc main_arg2)) (ix2 (rowOf t p) k) := by
  obtain ⟨e0, e1, e2, e3, e4, e5, e6, e7, e8, e9, e10, e11, e12, e13, e14, e15⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 1024 + 1 * p.val = t.val * 1024 + p.val; rw [e4]; omega
  | ⟨1, _⟩ => show win0_2.index t (1 : Fin 2) * 512 + 1 * k.val = k.val; rw [e5]; omega

/-- Point `t`'s block of resident window 3 is the whole operand. -/
theorem blk3 (c : Dev nD) (t : Fin cfg0.N) (k : Fin 512) (col : Fin 2560) :
    iblk m c 3 t (ix2 k col) = V m c main_v11 (ix2 k col) := by
  obtain ⟨e0, e1, e2, e3, e4, e5, e6, e7, e8, e9, e10, e11, e12, e13, e14, e15⟩ := idx_facts t
  show V m c main_v11 (((cfg0.win 3).blk t).view.emb (ix2 k col)) = _
  refine congrArg _ (funext fun a => Fin.ext ?_)
  match a with
  | ⟨0, _⟩ => show win0_3.index t (0 : Fin 2) * 512 + 1 * k.val = k.val; rw [e6]; omega
  | ⟨1, _⟩ => show win0_3.index t (1 : Fin 2) * 2560 + 1 * col.val = col.val; rw [e7]; omega

/-- Point `t`'s block of resident window 4 is the whole operand. -/
theorem blk4 (c : Dev nD) (t : Fin cfg0.N) (k : Fin 512) (col : Fin 2560) :
    iblk m c 4 t (ix2 k col) = V m c main_v13 (ix2 k col) := by
  obtain ⟨e0, e1, e2, e3, e4, e5, e6, e7, e8, e9, e10, e11, e12, e13, e14, e15⟩ := idx_facts t
  show V m c main_v13 (((cfg0.win 4).blk t).view.emb (ix2 k col)) = _
  refine congrArg _ (funext fun a => Fin.ext ?_)
  match a with
  | ⟨0, _⟩ => show win0_4.index t (0 : Fin 2) * 512 + 1 * k.val = k.val; rw [e8]; omega
  | ⟨1, _⟩ => show win0_4.index t (1 : Fin 2) * 2560 + 1 * col.val = col.val; rw [e9]; omega

/-- Point `t`'s block of resident window 5 is the whole operand. -/
theorem blk5 (c : Dev nD) (t : Fin cfg0.N) (k : Fin 1) (col : Fin 2560) :
    iblk m c 5 t (ix2 k col) = V m c main_v14 (ix2 k col) := by
  obtain ⟨e0, e1, e2, e3, e4, e5, e6, e7, e8, e9, e10, e11, e12, e13, e14, e15⟩ := idx_facts t
  show V m c main_v14 (((cfg0.win 5).blk t).view.emb (ix2 k col)) = _
  refine congrArg _ (funext fun a => Fin.ext ?_)
  match a with
  | ⟨0, _⟩ => show win0_5.index t (0 : Fin 2) * 1 + 1 * k.val = k.val; rw [e10]; omega
  | ⟨1, _⟩ => show win0_5.index t (1 : Fin 2) * 2560 + 1 * col.val = col.val; rw [e11]; omega

/-- What point `t` writes back to the cell result is block `t` of the specification's array. -/
theorem flushed7_eq (c : Dev nD) (t : Fin cfg0.N) :
    (dats m 0 c).flushed 7 t = ((cfg0.win 7).blk t).view.read (Elt Ideal) (cellK m c) := by
  show (cfg0.win 7).cut (grid0.coords t) ((dats m 0 c).after 7 t) = _
  rw [after7]
  unfold outC
  rw [View.canon_unit_zero hz]
  simp only [View.ld_unit_zero (S := S1024x512) hz, View.ld_unit_zero (S := S512x2560) hz, View.ld_unit_zero (S := S1x2560) hz]
  obtain ⟨e0, e1, e2, e3, e4, e5, e6, e7, e8, e9, e10, e11, e12, e13, e14, e15⟩ := idx_facts t
  funext y
  show k0_pay2 (F := Ideal) (iblk m c 0 t) (iblk m c 1 t) (iblk m c 2 t) (iblk m c 3 t) (iblk m c 4 t) (iblk m c 5 t) y
    = cellK m c (((cfg0.win 7).blk t).view.emb y)
  have hemb : ((cfg0.win 7).blk t).view.emb y = ix2 (rowOf t (y 0)) (y 1) := funext fun a => Fin.ext (by
    match a with
    | ⟨0, _⟩ => show win0_7.index t (0 : Fin 2) * 1024 + 1 * (y 0).val = t.val * 1024 + (y 0).val; rw [e14]; omega
    | ⟨1, _⟩ => show win0_7.index t (1 : Fin 2) * 512 + 1 * (y 1).val = (y 1).val; rw [e15]; omega)
  rw [hemb]
  refine (congrArg (k0_pay2 (F := Ideal) (iblk m c 0 t) (iblk m c 1 t) (iblk m c 2 t) (iblk m c 3 t) (iblk m c 4 t) (iblk m c 5 t)) (eq_ix2 y)).trans ?_
  exact tile_cell (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (Wx4 m c) (Wh4 m c) (bx4 m c) (bh4 m c) (rowOf t (y 0)) (y 0)
    (fun k => blk0 m c t (y 0) k) (fun k => blk1 m c t (y 0) k)
    (fun k j => (blk3 m c t k _).trans (wx_stack m c k j)) (fun k j => (blk4 m c t k _).trans (wh_stack m c k j))
    (fun j => (blk5 m c t 0 _).trans (b_stack m c j))
    (fun q => blk2 m c t (y 0) q) (y 1)

/-- What point `t` writes back to the hidden result is block `t` of the specification's array. -/
theorem flushed6_eq (c : Dev nD) (t : Fin cfg0.N) :
    (dats m 0 c).flushed 6 t = ((cfg0.win 6).blk t).view.read (Elt Ideal) (hidK m c) := by
  show (cfg0.win 6).cut (grid0.coords t) ((dats m 0 c).after 6 t) = _
  rw [after6]
  unfold outH
  rw [View.canon_unit_zero hz]
  simp only [View.ld_unit_zero (S := S1024x512) hz, View.ld_unit_zero (S := S512x2560) hz, View.ld_unit_zero (S := S1x2560) hz]
  obtain ⟨e0, e1, e2, e3, e4, e5, e6, e7, e8, e9, e10, e11, e12, e13, e14, e15⟩ := idx_facts t
  funext y
  show k0_pay3 (F := Ideal) (iblk m c 0 t) (iblk m c 1 t) (iblk m c 2 t) (iblk m c 3 t) (iblk m c 4 t) (iblk m c 5 t) y
    = hidK m c (((cfg0.win 6).blk t).view.emb y)
  have hemb : ((cfg0.win 6).blk t).view.emb y = ix2 (rowOf t (y 0)) (y 1) := funext fun a => Fin.ext (by
    match a with
    | ⟨0, _⟩ => show win0_6.index t (0 : Fin 2) * 1024 + 1 * (y 0).val = t.val * 1024 + (y 0).val; rw [e12]; omega
    | ⟨1, _⟩ => show win0_6.index t (1 : Fin 2) * 512 + 1 * (y 1).val = (y 1).val; rw [e13]; omega)
  rw [hemb]
  refine (congrArg (k0_pay3 (F := Ideal) (iblk m c 0 t) (iblk m c 1 t) (iblk m c 2 t) (iblk m c 3 t) (iblk m c 4 t) (iblk m c 5 t)) (eq_ix2 y)).trans ?_
  exact tile_hid (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (Wx4 m c) (Wh4 m c) (bx4 m c) (bh4 m c) (m ((c : Thread nD τ).loc main_arg19)) (m ((c : Thread nD τ).loc main_arg20)) (rowOf t (y 0)) (y 0)
    (fun k => blk0 m c t (y 0) k) (fun k => blk1 m c t (y 0) k)
    (fun k j => (blk3 m c t k _).trans (wx_stack m c k j)) (fun k j => (blk4 m c t k _).trans (wh_stack m c k j))
    (fun j => (blk5 m c t 0 _).trans (b_stack m c j))
    (fun k j => (blk3 m c t k _).trans (wx_exp m c k j)) (fun k j => (blk4 m c t k _).trans (wh_exp m c k j))
    (fun j => (blk5 m c t 0 _).trans (b_exp m c j))
    (fun q => blk2 m c t (y 0) q) (y 1)

/-- Every batch row lies in some point's block of result window 6: row `r` in point `r / 1024`'s. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨e0, e1, e2, e3, e4, e5, e6, e7, e8, e9, e10, e11, e12, e13, e14, e15⟩ := idx_facts t
  refine ⟨t, flush0_6 t, ?_⟩
  show i ∈ ((View.whole main_v15_0).slice (win0_6.rect t)).set
  rw [View.set_slice_whole, Rect.mem_set_unit]
  intro a
  have ht : t.val = (i 0).val / 1024 := rfl
  match a with
  | ⟨0, _⟩ => show win0_6.index t (0 : Fin 2) * 1024 ≤ (i 0).val ∧ (i 0).val < win0_6.index t (0 : Fin 2) * 1024 + 1024; rw [e12]; omega
  | ⟨1, _⟩ => show win0_6.index t (1 : Fin 2) * 512 ≤ (i 1).val ∧ (i 1).val < win0_6.index t (1 : Fin 2) * 512 + 512; rw [e13]; omega

/-- Every batch row lies in some point's block of result window 7: row `r` in point `r / 1024`'s. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨e0, e1, e2, e3, e4, e5, e6, e7, e8, e9, e10, e11, e12, e13, e14, e15⟩ := idx_facts t
  refine ⟨t, flush0_7 t, ?_⟩
  show i ∈ ((View.whole main_v15_1).slice (win0_7.rect t)).set
  rw [View.set_slice_whole, Rect.mem_set_unit]
  intro a
  have ht : t.val = (i 0).val / 1024 := rfl
  match a with
  | ⟨0, _⟩ => show win0_7.index t (0 : Fin 2) * 1024 ≤ (i 0).val ∧ (i 0).val < win0_7.index t (0 : Fin 2) * 1024 + 1024; rw [e14]; omega
  | ⟨1, _⟩ => show win0_7.index t (1 : Fin 2) * 512 ≤ (i 1).val ∧ (i 1).val < win0_7.index t (1 : Fin 2) * 512 + 512; rw [e15]; omega

/-- The hidden-state result after the run. -/
theorem finalH (c : Dev nD) : (dats m 0 c).arrAt 6 cfg0.N = hidK m c :=
  (dats m 0 c).arrAt_eq_of_cover 6 (hidK m c) (fun t _ => flushed6_eq m c t) cover6

/-- The cell-state result after the run. -/
theorem finalC (c : Dev nD) : (dats m 0 c).arrAt 7 cfg0.N = cellK m c :=
  (dats m 0 c).arrAt_eq_of_cover 7 (cellK m c) (fun t _ => flushed7_eq m c t) cover7

/-- The idealized kernel's run: both results at the specification's arrays, the arguments unchanged. -/
theorem run : θ_run defs (onTc (τ := τ) (main (F := Ideal))) ⟨m, fun _ => 0, ρ⟩ fun r => ∀ c : Dev nD,
      r.2.mem ((c.tc : Thread nD τ).loc main_v15_0) = hidK m c
      ∧ r.2.mem ((c.tc : Thread nD τ).loc main_v15_1) = cellK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨(postH m r h c).trans (finalH m c), (postC m r h c).trans (finalC m c),
      kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c, kept_main_arg19 m r h c, kept_main_arg20 m r h c⟩) (run_main m ρ)

end Cert.KernelIdeal.Val

end
-- ==== Proof.RefValue.lean ====
/-
  The reference's two results, read index by index, are the gated cell of the specification: its two
  matrix products against the transposed stacks are the row sums ∑ₖ x[r,k]·Wx[j,k] and ∑ₖ h[r,k]·Wh[j,k], its
  four column slices are the four gates, its `1 / (1 + exp (-g))` is the logistic function, and the exponential
  gate's two products read the two halves of the [512, 1024] matrix.
-/
import proofs.«120805_j76390288327651_2_alg».proof.Proof.Gen.ReferenceIdeal.Read
import proofs.«120805_j76390288327651_2_alg».proof.Proof.Spec

noncomputable section

open scoped BigOperators

namespace Cert.ReferenceIdeal.RefValue

open Cert.ReferenceIdeal Cert.ReferenceIdeal.Gen Cert.ReferenceIdeal.Read Cert.Xlstm
open Idealize.ShloMosaic Idealize.ShloMosaic.ValueIdx

/-- The host's spelling of the logistic function, with the f32 pattern of 1.0 for both ones. -/
theorem host_logistic (g : EReal) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  show Ideal.div (Ideal.ofBits .f32 0x3F800000#32) (Ideal.ofBits .f32 0x3F800000#32 + Ideal.exp (-g)) = _
  rw [one_f32]; rfl

section
variable (x0 x1 x2 : (⟨S16384x512, .f32⟩ : BufTy).Contents (Elt Ideal))
  (x3 x5 x7 x9 x11 x13 x15 x17 : (⟨S512x512, .f32⟩ : BufTy).Contents (Elt Ideal))
  (x4 x6 x8 x10 x12 x14 x16 x18 x20 : (⟨S512, .f32⟩ : BufTy).Contents (Elt Ideal))
  (x19 : (⟨S512x1024, .f32⟩ : BufTy).Contents (Elt Ideal))

/-- The sum of the two biased products at (r, j) is the stacked gate's pre-activation. -/
theorem gates_apply (r : Fin 16384) (j : Fin 2048) :
    val_main_v14 (F := Ideal) x0 x1 x3 x4 x5 x6 x7 x8 x9 x10 x11 x12 x13 x14 x15 x16 x17 x18 (ix2 r j) = gate x0 x1 (val_main_v0 (F := Ideal) x3 x7 x11 x15) (val_main_v2 (F := Ideal) x5 x9 x13 x17) (val_main_v1 (F := Ideal) x4 x8 x12 x16) (val_main_v3 (F := Ideal) x6 x10 x14 x18) r j := by
  rw [val_main_v14_apply, val_main_v8_apply, val_main_v13_apply, val_main_v5_apply, val_main_v10_apply,
    val_main_v7_apply, val_main_v6_apply, val_main_v12_apply, val_main_v11_apply]
  simp only [val_main_v4_apply, val_main_v9_apply]
  have e1 : ∀ k : Fin 512, lidx_main_v5 (ix2 r j) k = ix2 r k := fun k => funext fun a => by
    match a with | ⟨0, _⟩ => rfl | ⟨1, _⟩ => rfl
  have e2 : ∀ k : Fin 512, idx_main_v4 (ridx_main_v5 (ix2 r j) k) = ix2 j k := fun k => funext fun a => by
    match a with | ⟨0, _⟩ => rfl | ⟨1, _⟩ => rfl
  have e3 : ∀ k : Fin 512, lidx_main_v10 (ix2 r j) k = ix2 r k := fun k => funext fun a => by
    match a with | ⟨0, _⟩ => rfl | ⟨1, _⟩ => rfl
  have e4 : ∀ k : Fin 512, idx_main_v9 (ridx_main_v10 (ix2 r j) k) = ix2 j k := fun k => funext fun a => by
    match a with | ⟨0, _⟩ => rfl | ⟨1, _⟩ => rfl
  have e5 : idx_main_v6 (idx_main_v7 (ix2 r j)) = ix1 j := funext fun a => by
    match a with | ⟨0, _⟩ => rfl
  have e6 : idx_main_v11 (idx_main_v12 (ix2 r j)) = ix1 j := funext fun a => by
    match a with | ⟨0, _⟩ => rfl
  simp only [e1, e2, e3, e4, e5, e6]
  rfl

/-- The exponential gate's pre-activation at (r, j). -/
theorem egate_apply (r : Fin 16384) (j : Fin 512) :
    val_main_v50 (F := Ideal) x0 x1 x19 x20 (ix2 r j) = egate x0 x1 x19 x20 r j := by
  rw [val_main_v50_apply, val_main_v47_apply, val_main_v44_apply, val_main_v46_apply, val_main_v49_apply, val_main_v48_apply]
  simp only [val_main_v43_apply, val_main_v45_apply, val_main_v41_apply, val_main_v42_apply]
  have e1 : ∀ k : Fin 512, lidx_main_v44 (ix2 r j) k = ix2 r k := fun k => funext fun a => by
    match a with | ⟨0, _⟩ => rfl | ⟨1, _⟩ => rfl
  have e2 : ∀ k : Fin 512, idx_main_v41 (idx_main_v43 (ridx_main_v44 (ix2 r j) k)) = ix2 j (⟨k.val, by omega⟩ : Fin 1024) := fun k => funext fun a => by
    match a with | ⟨0, _⟩ => rfl | ⟨1, _⟩ => rfl
  have e3 : ∀ k : Fin 512, lidx_main_v46 (ix2 r j) k = ix2 r k := fun k => funext fun a => by
    match a with | ⟨0, _⟩ => rfl | ⟨1, _⟩ => rfl
  have e4 : ∀ k : Fin 512, idx_main_v42 (idx_main_v45 (ridx_main_v46 (ix2 r j) k)) = ix2 j (⟨512 + k.val, by omega⟩ : Fin 1024) := fun k => funext fun a => by
    match a with | ⟨0, _⟩ => rfl | ⟨1, _⟩ => rfl
  have e5 : idx_main_v48 (idx_main_v49 (ix2 r j)) = ix1 j := funext fun a => by
    match a with | ⟨0, _⟩ => rfl
  simp only [e1, e2, e3, e4, e5]
  rfl

/-- The reference's cell state at (r, q). -/
theorem cell_apply (r : Fin 16384) (q : Fin 512) :
    val_main_v40 (F := Ideal) x0 x1 x2 x3 x4 x5 x6 x7 x8 x9 x10 x11 x12 x13 x14 x15 x16 x17 x18 (ix2 r q) = cell x0 x1 x2 (val_main_v0 (F := Ideal) x3 x7 x11 x15) (val_main_v2 (F := Ideal) x5 x9 x13 x17) (val_main_v1 (F := Ideal) x4 x8 x12 x16) (val_main_v3 (F := Ideal) x6 x10 x14 x18) r q := by
  have s0 : idx_main_v15 (ix2 r q) = ix2 r (⟨q.val, by omega⟩ : Fin 2048) := funext fun a => by
    match a with | ⟨0, _⟩ => rfl | ⟨1, _⟩ => rfl
  have s1 : idx_main_v16 (ix2 r q) = ix2 r (⟨512 + q.val, by omega⟩ : Fin 2048) := funext fun a => by
    match a with | ⟨0, _⟩ => rfl | ⟨1, _⟩ => rfl
  have s2 : idx_main_v17 (ix2 r q) = ix2 r (⟨1024 + q.val, by omega⟩ : Fin 2048) := funext fun a => by
    match a with | ⟨0, _⟩ => rfl | ⟨1, _⟩ => rfl
  simp only [val_main_v40_apply, val_main_v38_apply, val_main_v39_apply, val_main_v30_apply, val_main_v29_apply, val_main_v28_apply,
    val_main_v27_apply, val_main_v26_apply, val_main_v25_apply, val_main_v16_apply, val_main_v24_apply, val_main_v23_apply,
    val_main_v22_apply, val_main_v21_apply, val_main_v20_apply, val_main_v19_apply, val_main_v15_apply, val_main_v31_apply,
    val_main_v17_apply, val_main_cst_apply, val_main_cst_0_apply, val_main_cst_1_apply, val_main_cst_2_apply, s0, s1, s2, gates_apply, host_logistic]
  rfl

/-- The reference's hidden state at (r, q). -/
theorem hid_apply (r : Fin 16384) (q : Fin 512) :
    val_main_v55 (F := Ideal) x0 x1 x2 x3 x4 x5 x6 x7 x8 x9 x10 x11 x12 x13 x14 x15 x16 x17 x18 x19 x20 (ix2 r q) = hid x0 x1 x2 (val_main_v0 (F := Ideal) x3 x7 x11 x15) (val_main_v2 (F := Ideal) x5 x9 x13 x17) (val_main_v1 (F := Ideal) x4 x8 x12 x16) (val_main_v3 (F := Ideal) x6 x10 x14 x18) x19 x20 r q := by
  have s3 : idx_main_v18 (ix2 r q) = ix2 r (⟨1536 + q.val, by omega⟩ : Fin 2048) := funext fun a => by
    match a with | ⟨0, _⟩ => rfl | ⟨1, _⟩ => rfl
  simp only [val_main_v55_apply, val_main_v54_apply, val_main_v53_apply, val_main_v52_apply, val_main_v51_apply, val_main_v37_apply,
    val_main_v36_apply, val_main_v35_apply, val_main_v34_apply, val_main_v33_apply, val_main_v32_apply, val_main_v18_apply,
    val_main_cst_3_apply, val_main_cst_4_apply, s3, gates_apply, host_logistic, cell_apply, egate_apply]
  rfl

/-- The reference's second result is the specification's cell array. -/
theorem cell_eq : val_main_v40 (F := Ideal) x0 x1 x2 x3 x4 x5 x6 x7 x8 x9 x10 x11 x12 x13 x14 x15 x16 x17 x18 = cellArr x0 x1 x2 (val_main_v0 (F := Ideal) x3 x7 x11 x15) (val_main_v2 (F := Ideal) x5 x9 x13 x17) (val_main_v1 (F := Ideal) x4 x8 x12 x16) (val_main_v3 (F := Ideal) x6 x10 x14 x18) := by
  funext i
  obtain ⟨r, q, rfl⟩ : ∃ (r : Fin 16384) (q : Fin 512), i = ix2 r q := ⟨i 0, i 1, eq_ix2 i⟩
  exact cell_apply (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16) (x17 := x17) (x18 := x18) r q

/-- The reference's first result is the specification's hidden array. -/
theorem hid_eq : val_main_v55 (F := Ideal) x0 x1 x2 x3 x4 x5 x6 x7 x8 x9 x10 x11 x12 x13 x14 x15 x16 x17 x18 x19 x20 = hidArr x0 x1 x2 (val_main_v0 (F := Ideal) x3 x7 x11 x15) (val_main_v2 (F := Ideal) x5 x9 x13 x17) (val_main_v1 (F := Ideal) x4 x8 x12 x16) (val_main_v3 (F := Ideal) x6 x10 x14 x18) x19 x20 := by
  funext i
  obtain ⟨r, q, rfl⟩ : ∃ (r : Fin 16384) (q : Fin 512), i = ix2 r q := ⟨i 0, i 1, eq_ix2 i⟩
  exact hid_apply (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16) (x17 := x17) (x18 := x18) (x19 := x19) (x20 := x20) r q

end

end Cert.ReferenceIdeal.RefValue

end
-- ==== Proof.lean ====
/-
  The certificate of the fused gated-cell kernel against its reference, at the extended reals.

  Both programs compute, for every batch row r and hidden column q,
      c[r,q] = σ(g_f)·c_prev[r,q] + σ(g_i)·tanh(g_c),    h[r,q] = σ(g_o)·tanh(c[r,q])·exp(tanh(e)),
  where the four gate pre-activations g are columns q, 512+q, 1024+q, 1536+q of
      (x·Wxᵀ + bx) + (h_prev·Whᵀ + bh)
  over the four stacked weight matrices and biases, and e = x·Weₓᵀ + h_prev·Weₕᵀ + b_e over the two halves of the
  exponential gate's matrix. The kernel fuses the five products into one [*, 2560] product per side against the
  transposed stacks (narrowed to sixteen bits, the identity at the extended reals), adds the two sides first and then
  the pre-summed bias bx + bh: the same sum by commutativity and associativity of addition, which hold on the
  extended reals without any finiteness assumption — so the precondition is never opened. The kernel's logistic
  operation and the reference's 1 / (1 + exp(−g)) are one function.

  The frames: each kernel program's @main is fifteen host operations that write only their own results, then one
  region over sixteen batch tiles whose body loads six tiles and stores two; the reference is host operations only.
  The idealization rewrote no operation, so it is preserved trivially.
-/
import proofs.«120805_j76390288327651_2_alg».proof.Defs
import proofs.«120805_j76390288327651_2_alg».proof.Proof.Gen.Kernel
import proofs.«120805_j76390288327651_2_alg».proof.Proof.Gen.KernelIdeal
import proofs.«120805_j76390288327651_2_alg».proof.Proof.Gen.ReferenceIdeal
import proofs.«120805_j76390288327651_2_alg».proof.Proof.Gen.Pre_finite_inputs
import proofs.«120805_j76390288327651_2_alg».proof.Proof.FrameKernel
import proofs.«120805_j76390288327651_2_alg».proof.Proof.FrameKernelIdeal
import proofs.«120805_j76390288327651_2_alg».proof.Proof.KernelValue
import proofs.«120805_j76390288327651_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's hidden and cell arrays. -/
theorem algebraic : Cert.algebraic_KernelIdeal_ReferenceIdeal := by
  intro m ρ m' ρ' _ hagree
  refine ⟨fun c => Cert.KernelIdeal.Val.hidK m c, fun c => Cert.KernelIdeal.Val.cellK m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19, a20⟩ := hagree c
    rw [Cert.ReferenceIdeal.Read.val_main_v55_eq, Cert.ReferenceIdeal.RefValue.hid_eq]
    simp only [a0, a1, a2, a3, a4, a5, a6, a7, a8, a9, a10, a11, a12, a13, a14, a15, a16, a17, a18, a19, a20]
    rfl
  · obtain ⟨a0, a1, a2, a3, a4, a5, a6, a7, a8, a9, a10, a11, a12, a13, a14, a15, a16, a17, a18, a19, a20⟩ := hagree c
    rw [Cert.ReferenceIdeal.Read.val_main_v40_eq, Cert.ReferenceIdeal.RefValue.cell_eq]
    simp only [a0, a1, a2, a3, a4, a5, a6, a7, a8, a9, a10, a11, a12, a13, a14, a15, a16, a17, a18, a19, a20]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
